-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x512 : Shape := ⟨3, ![64, 256, 512]⟩
abbrev S64x256x1 : Shape := ⟨3, ![64, 256, 1]⟩
abbrev S_ : Shape := ⟨0, ![]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel
  bcast_S_S64x256x1 : S_.BroadcastsInDim S64x256x1 (![] : Fin 0 → Fin S64x256x1.rank)
  reducesTo_S64x256x1_S_d0_1_2 : S64x256x1.ReducesTo [0, 1, 2] S_

variable [Facts]

def fn {F : FTy → Type} [FloatOps F] (main_arg0 : FVec F S64x256x512 .f32) (main_arg1 : FVec F S64x256x512 .f32) (main_arg2 : FVec F S64x256x1 .f32) : IVec S_ 1 :=
  let main_v0 : FVec F S64x256x512 .f32 := Host.absf main_arg0
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  let main_v4 : FVec F S64x256x512 .f32 := Host.absf main_arg1
  let main_cst_0 : FVec F S_ .f32 := constant S_ .f32 0x7F800000#32
  let main_v5 : FVec F S64x256x512 .f32 := broadcastInDim S64x256x512 ![] bcast_S_S64x256x512 main_cst_0
  let main_v6 : IVec S64x256x512 1 := cmpf .olt main_v4 main_v5
  let main_c_1 : IVec S_ 1 := constantI S_ 1 1#1
  let main_v7 : IVec S_ 1 := (fun x v => Host.reduce IntOp.andi x v reducesTo_S64x256x512_S_d0_1_2 h_S_) main_v6 main_c_1
  let main_v8 : IVec S_ 1 := andi main_v3 main_v7
  let main_v9 : FVec F S64x256x1 .f32 := Host.absf main_arg2
  let main_cst_2 : FVec F S_ .f32 := constant S_ .f32 0x7F800000#32
  let main_v10 : FVec F S64x256x1 .f32 := broadcastInDim S64x256x1 ![] bcast_S_S64x256x1 main_cst_2
  let main_v11 : IVec S64x256x1 1 := cmpf .olt main_v9 main_v10
  let main_c_3 : IVec S_ 1 := constantI S_ 1 1#1
  let main_v12 : IVec S_ 1 := (fun x v => Host.reduce IntOp.andi x v reducesTo_S64x256x1_S_d0_1_2 h_S_) main_v11 main_c_3
  let main_v13 : IVec S_ 1 := andi main_v8 main_v12
  main_v13
-- ==== Kernel.lean ====
abbrev S64x256x512 : Shape := ⟨3, ![64, 256, 512]⟩
abbrev S64x256x1 : Shape := ⟨3, ![64, 256, 1]⟩
abbrev S64x512x512 : Shape := ⟨3, ![64, 512, 512]⟩
abbrev S2x256x512 : Shape := ⟨3, ![2, 256, 512]⟩
abbrev S2x256x1 : Shape := ⟨3, ![2, 256, 1]⟩
abbrev S2x512x512 : Shape := ⟨3, ![2, 512, 512]⟩

abbrev nBuf : Space → Nat
  | .hbm => 5
  | .vmem => 10
  | .smem => 0
  | _ => 0

abbrev bufTy : (tb : Table) → Fin (tcTables nBuf tb) → BufTy
  | .hbm, ⟨0, _⟩ => ⟨S64x256x512, .f32⟩
  | .hbm, ⟨1, _⟩ => ⟨S64x256x512, .f32⟩
  | .hbm, ⟨2, _⟩ => ⟨S64x256x1, .f32⟩
  | .hbm, ⟨3, _⟩ => ⟨S64x512x512, .f32⟩
  | .hbm, ⟨4, _⟩ => ⟨S64x512x512, .f32⟩
  | .local _ .vmem, ⟨0, _⟩ => ⟨S2x256x512, .f32⟩
  | .local _ .vmem, ⟨1, _⟩ => ⟨S2x256x512, .f32⟩
  | .local _ .vmem, ⟨2, _⟩ => ⟨S2x256x512, .f32⟩
  | .local _ .vmem, ⟨3, _⟩ => ⟨S2x256x512, .f32⟩
  | .local _ .vmem, ⟨4, _⟩ => ⟨S2x256x1, .f32⟩
  | .local _ .vmem, ⟨5, _⟩ => ⟨S2x256x1, .f32⟩
  | .local _ .vmem, ⟨6, _⟩ => ⟨S2x512x512, .f32⟩
  | .local _ .vmem, ⟨7, _⟩ => ⟨S2x512x512, .f32⟩
  | .local _ .vmem, ⟨8, _⟩ => ⟨S2x512x512, .f32⟩
  | .local _ .vmem, ⟨9, _⟩ => ⟨S2x512x512, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2x256x512_S2x256x512_0_0_0 : ∀ a, (![0, 0, 0] : Fin 3 → Nat) a + S2x256x512.size a ≤ S2x256x512.size a
  h_S2x256x512 : 0 < S2x256x512.numel
  inb_S2x256x1_S2x256x1_0_0_0 : ∀ a, (![0, 0, 0] : Fin 3 → Nat) a + S2x256x1.size a ≤ S2x256x1.size a
  h_S2x256x1 : 0 < S2x256x1.numel
  broadcasts_S2x256x1_S2x256x512 : S2x256x1.Broadcasts S2x256x512
  bitsLt_bf16_f32 : FTy.bits .bf16 < FTy.bits .f32
  inb_S2x512x512_S2x512x512_0_0_0 : ∀ a, (![0, 0, 0] : Fin 3 → Nat) a + S2x512x512.size a ≤ S2x512x512.size a
  h_S2x512x512 : 0 < S2x512x512.numel
  dot_S2x256x512_S2x256x512_S2x512x512_1_1_2_2_0_0_wf : DotDims.WF S2x256x512 S2x256x512 S2x512x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x512.size a ≤ S64x256x512.size a
  hwx0_0 : ∀ i : grid0.Coords, EltTy.bits .f32 = 32 ∨ (Rect.block (s := S64x256x512) S2x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x512.size a ≤ S64x256x512.size a
  hwx0_1 : ∀ i : grid0.Coords, EltTy.bits .f32 = 32 ∨ (Rect.block (s := S64x256x512) S2x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x1.size a ≤ S64x256x1.size a
  hwx0_2 : ∀ i : grid0.Coords, EltTy.bits .f32 = 32 ∨ (Rect.block (s := S64x256x1) S2x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S64x512x512.size a
  hwx0_3 : ∀ i : grid0.Coords, EltTy.bits .f32 = 32 ∨ (Rect.block (s := S64x512x512) S2x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x512.size a ≤ S64x512x512.size a
  hwx0_4 : ∀ i : grid0.Coords, EltTy.bits .f32 = 32 ∨ (Rect.block (s := S64x512x512) S2x512x512.size (cc0_transform_4 i) (hinb0_4 i)).WholeWords (EltTy.packing .f32)

variable [Facts₀]

def dot_S2x256x512_S2x256x512_S2x512x512_1_1_2_2_0_0 : DotDims S2x256x512 S2x256x512 S2x512x512 where
  lhsContracting := [1]
  rhsContracting := [1]
  lhsNonContracting := [2]
  rhsNonContracting := [2]
  lhsBatch := [0]
  rhsBatch := [0]
  wf := dot_S2x256x512_S2x256x512_S2x512x512_1_1_2_2_0_0_wf

abbrev win0_0 : Pipeline.Window sig grid0 :=
  Pipeline.Window.ofSpec (Memref.whole main_arg0) S2x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x512 : Shape := ⟨3, ![64, 256, 512]⟩
abbrev S64x256x1 : Shape := ⟨3, ![64, 256, 1]⟩
abbrev S64x256 : Shape := ⟨2, ![64, 256]⟩
abbrev S64x512x512 : Shape := ⟨3, ![64, 512, 512]⟩

abbrev nBuf : Space → Nat
  | .hbm => 16
  | .vmem => 0
  | .smem => 0
  | _ => 0

abbrev bufTy : (tb : Table) → Fin (tcTables nBuf tb) → BufTy
  | .hbm, ⟨0, _⟩ => ⟨S64x256x512, .f32⟩
  | .hbm, ⟨1, _⟩ => ⟨S64x256x512, .f32⟩
  | .hbm, ⟨2, _⟩ => ⟨S64x256x1, .f32⟩
  | .hbm, ⟨3, _⟩ => ⟨S64x256, .f32⟩
  | .hbm, ⟨4, _⟩ => ⟨S64x256x1, .f32⟩
  | .hbm, ⟨5, _⟩ => ⟨S64x256x512, .f32⟩
  | .hbm, ⟨6, _⟩ => ⟨S64x256x512, .f32⟩
  | .hbm, ⟨7, _⟩ => ⟨S64x256x1, .f32⟩
  | .hbm, ⟨8, _⟩ => ⟨S64x256x512, .f32⟩
  | .hbm, ⟨9, _⟩ => ⟨S64x256x512, .f32⟩
  | .hbm, ⟨10, _⟩ => ⟨S64x512x512, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S64x512x512, .f32⟩
  | .hbm, ⟨15, _⟩ => ⟨S64x512x512, .f32⟩
  | _, _ => ⟨S64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  shapeCasts_S64x256x1_S64x256 : S64x256x1.ShapeCasts S64x256
  bcast_S64x256_S64x256x1_0_1 : S64x256.BroadcastsInDim S64x256x1 (![0, 1] : Fin 2 → Fin S64x256x1.rank)
  bcast_S64x256x1_S64x256x512_0_1_2 : S64x256x1.BroadcastsInDim S64x256x512 (![0, 1, 2] : Fin 3 → Fin S64x256x512.rank)
  dot_S64x256x512_S64x256x512_S64x512x512_1_1_2_2_0_0_wf : DotDims.WF S64x256x512 S64x256x512 S64x512x512 [1] [1] [2] [2] [0] [0]

variable [Facts₀]

def dot_S64x256x512_S64x256x512_S64x512x512_1_1_2_2_0_0 : DotDims S64x256x512 S64x256x512 S64x512x512 where
  lhsContracting := [1]
  rhsContracting := [1]
  lhsNonContracting := [2]
  rhsNonContracting := [2]
  lhsBatch := [0]
  rhsBatch := [0]
  wf := dot_S64x256x512_S64x256x512_S64x512x512_1_1_2_2_0_0_wf

class Facts : Prop extends Facts₀ where

variable [Facts]
-- ==== Proof.GramSpec.lean ====
/-
  The weighted Gram sums that both programs compute, over the extended reals with every product and sum exact.

  A batch holds B samples; a sample is T = 256 steps of a D = 512-dimensional vector, given by its real parts r and its
  imaginary parts s, and a weight w per step. For two such arrays p, q and the weights, at sample b and output entry (d, e),

      wgram p q w (b, d, e) = sum over the steps t of (p[b,t,d] * w[b,t]) * q[b,t,e],

  the (d, e) entry of the weighted outer-product sum of p's and q's step vectors. The result's real part is
  wgram r r w + wgram s s w and its imaginary part is wgram s r w - wgram r s w: the weighted sum over the steps of the
  complex outer product of a step's vector with its conjugate. The batch extent B is a parameter, so that the same
  definition reads a block of two samples and the whole batch of sixty-four.
-/
import Idealize.ShloMosaic.PureOps.Ideal
import Idealize.ShloMosaic.Lib.ValueIdx

noncomputable section

namespace Cert.Gram

open Idealize.ShloMosaic Idealize.ShloMosaic.ValueIdx

/-- The weighted sum over the 256 steps of the products p[b,t,d] * w[b,t] * q[b,t,e], grouped as both programs group them:
    the weight multiplies the left factor first. -/
def wgram {B : Nat} (p q : FVec Ideal ⟨3, ![B, 256, 512]⟩ .f32) (w : FVec Ideal ⟨3, ![B, 256, 1]⟩ .f32)
    (b : Fin B) (d e : Fin 512) : EReal :=
  ∑ k : Fin 256, (p (ix3 b k d) * w (ix3 b k (0 : Fin 1))) * q (ix3 b k e)

/-- The real part at sample b, entry (d, e). -/
def realAt {B : Nat} (r s : FVec Ideal ⟨3, ![B, 256, 512]⟩ .f32) (w : FVec Ideal ⟨3, ![B, 256, 1]⟩ .f32)
    (b : Fin B) (d e : Fin 512) : EReal :=
  wgram r r w b d e + wgram s s w b d e

/-- The imaginary part at sample b, entry (d, e). -/
def imagAt {B : Nat} (r s : FVec Ideal ⟨3, ![B, 256, 512]⟩ .f32) (w : FVec Ideal ⟨3, ![B, 256, 1]⟩ .f32)
    (b : Fin B) (d e : Fin 512) : EReal :=
  wgram s r w b d e - wgram r s w b d e

/-- The real part as a whole array over the sixty-four samples. -/
def realPart (r s : FVec Ideal ⟨3, ![64, 256, 512]⟩ .f32) (w : FVec Ideal ⟨3, ![64, 256, 1]⟩ .f32) :
    FVec Ideal ⟨3, ![64, 512, 512]⟩ .f32 :=
  fun i => realAt r s w ⟨(i 0).val, (i 0).isLt⟩ ⟨(i 1).val, (i 1).isLt⟩ ⟨(i 2).val, (i 2).isLt⟩

/-- The imaginary part as a whole array over the sixty-four samples. -/
def imagPart (r s : FVec Ideal ⟨3, ![64, 256, 512]⟩ .f32) (w : FVec Ideal ⟨3, ![64, 256, 1]⟩ .f32) :
    FVec Ideal ⟨3, ![64, 512, 512]⟩ .f32 :=
  fun i => imagAt r s w ⟨(i 0).val, (i 0).isLt⟩ ⟨(i 1).val, (i 1).isLt⟩ ⟨(i 2).val, (i 2).isLt⟩

theorem realPart_ix3 (r s : FVec Ideal ⟨3, ![64, 256, 512]⟩ .f32) (w : FVec Ideal ⟨3, ![64, 256, 1]⟩ .f32)
    (b : Fin 64) (d e : Fin 512) : realPart r s w (ix3 b d e) = realAt r s w b d e := rfl

theorem imagPart_ix3 (r s : FVec Ideal ⟨3, ![64, 256, 512]⟩ .f32) (w : FVec Ideal ⟨3, ![64, 256, 1]⟩ .f32)
    (b : Fin 64) (d e : Fin 512) : imagPart r s w (ix3 b d e) = imagAt r s w b d e := rfl

/-- Sample 2T + b of the batch, for block T of the thirty-two blocks of two samples and the sample b inside it. -/
def sampleOf (T : Nat) (hT : T < 32) (b : Fin 2) : Fin 64 := ⟨2 * T + b.val, by have := b.isLt; omega⟩

/-- If a block of two samples holds samples 2T and 2T + 1 of the batch arrays, its weighted Gram sums are the batch's at
    those samples. -/
theorem wgram_block (P Q : FVec Ideal ⟨3, ![64, 256, 512]⟩ .f32) (W : FVec Ideal ⟨3, ![64, 256, 1]⟩ .f32)
    (p q : FVec Ideal ⟨3, ![2, 256, 512]⟩ .f32) (w : FVec Ideal ⟨3, ![2, 256, 1]⟩ .f32) (T : Nat) (hT : T < 32)
    (hp : ∀ (b : Fin 2) (k : Fin 256) (d : Fin 512), p (ix3 b k d) = P (ix3 (sampleOf T hT b) k d))
    (hq : ∀ (b : Fin 2) (k : Fin 256) (d : Fin 512), q (ix3 b k d) = Q (ix3 (sampleOf T hT b) k d))
    (hw : ∀ (b : Fin 2) (k : Fin 256), w (ix3 b k (0 : Fin 1)) = W (ix3 (sampleOf T hT b) k (0 : Fin 1)))
    (b : Fin 2) (d e : Fin 512) : wgram p q w b d e = wgram P Q W (sampleOf T hT b) d e := by
  unfold wgram
  refine Finset.sum_congr rfl fun k _ => ?_
  rw [hp, hq, hw]

end Cert.Gram

end
-- ==== Proof.LibBatchedDotEntry.lean ====
/-
  A batched matrix product read at an entry, on the TensorCore and on the host. The two factors are batches of K×M and
  K×N matrices, [B, K, M] and [B, K, N]; the product contracts the K axis of both and keeps the batch axis, so that its
  result [B, M, N] holds, for each sample b, the M×N matrix (left b)ᵀ · (right b). At exact arithmetic its entry
  (b, p, q) is the sum over k of left (b, k, p) · right (b, k, q), for a TensorCore product into a zero accumulator and
  for the host's dot_general alike. Stated for any dimension record of these three shapes, given where it sends an
  output index and a contraction index.
-/
import Idealize.ShloMosaic.Lib.ValueIdx
import Idealize.ShloMosaic.PureOps.Ideal.Laws

noncomputable section

namespace Cert.Lib.BatchedDotEntry

open Idealize.ShloMosaic Idealize.ShloMosaic.ValueIdx

/-- Where the dimension numbers send an output index i = (b, p, q) and a contraction index c: to (b, c, p) on the left
    and (b, c, q) on the right. -/
structure Sends {B K M N : Nat} (D : DotDims ⟨3, ![B, K, M]⟩ ⟨3, ![B, K, N]⟩ ⟨3, ![B, M, N]⟩) (hr : D.contr.rank = 1) : Prop where
  l0 : ∀ (i : (⟨3, ![B, M, N]⟩ : Shape).Idx) (c : D.contr.Idx), (D.lhsIdx i c 0).val = (i 0).val
  l1 : ∀ (i : (⟨3, ![B, M, N]⟩ : Shape).Idx) (c : D.contr.Idx), (D.lhsIdx i c 1).val = (c ⟨0, by omega⟩).val
  l2 : ∀ (i : (⟨3, ![B, M, N]⟩ : Shape).Idx) (c : D.contr.Idx), (D.lhsIdx i c 2).val = (i 1).val
  r0 : ∀ (i : (⟨3, ![B, M, N]⟩ : Shape).Idx) (c : D.contr.Idx), (D.rhsIdx i c 0).val = (i 0).val
  r1 : ∀ (i : (⟨3, ![B, M, N]⟩ : Shape).Idx) (c : D.contr.Idx), (D.rhsIdx i c 1).val = (c ⟨0, by omega⟩).val
  r2 : ∀ (i : (⟨3, ![B, M, N]⟩ : Shape).Idx) (c : D.contr.Idx), (D.rhsIdx i c 2).val = (i 2).val

/-- The sum over the contraction index of the factors' products at (b, p, q), re-indexed by the contracted coordinate. -/
theorem sum_contr {B K M N : Nat} (D : DotDims ⟨3, ![B, K, M]⟩ ⟨3, ![B, K, N]⟩ ⟨3, ![B, M, N]⟩)
    (hr : D.contr.rank = 1) (hs : D.contr.size ⟨0, by omega⟩ = K) (h : Sends D hr)
    (lhs : (⟨3, ![B, K, M]⟩ : Shape).Idx → EReal) (rhs : (⟨3, ![B, K, N]⟩ : Shape).Idx → EReal) (b : Fin B) (p : Fin M) (q : Fin N) :
    ∑ c : D.contr.Idx, lhs (D.lhsIdx (ix3 b p q) c) * rhs (D.rhsIdx (ix3 b p q) c)
      = ∑ k : Fin K, lhs (ix3 b k p) * rhs (ix3 b k q) := by
  rw [← Equiv.sum_comp (contrEquiv1 D K hr hs).symm]
  refine Finset.sum_congr rfl fun k _ => ?_
  have hk := contrEquiv1_symm_val D K hr hs k
  have el : D.lhsIdx (ix3 b p q) ((contrEquiv1 D K hr hs).symm k) = ix3 b k p := funext fun a => Fin.ext (by
    match a with
    | ⟨0, _⟩ => exact h.l0 _ _
    | ⟨1, _⟩ => exact (h.l1 _ _).trans hk
    | ⟨2, _⟩ => exact h.l2 _ _)
  have er : D.rhsIdx (ix3 b p q) ((contrEquiv1 D K hr hs).symm k) = ix3 b k q := funext fun a => Fin.ext (by
    match a with
    | ⟨0, _⟩ => exact h.r0 _ _
    | ⟨1, _⟩ => exact (h.r1 _ _).trans hk
    | ⟨2, _⟩ => exact h.r2 _ _)
  rw [el, er]

/-- A TensorCore batched product (of any two float formats: at exact arithmetic a format is only a label) into a zero
    accumulator, read at entry (b, p, q). -/
theorem matmul_zero_ix3 {B K M N : Nat} {φ₁ φ₂ : FTy} (D : DotDims ⟨3, ![B, K, M]⟩ ⟨3, ![B, K, N]⟩ ⟨3, ![B, M, N]⟩)
    (hr : D.contr.rank = 1) (hs : D.contr.size ⟨0, by omega⟩ = K) (h : Sends D hr)
    (lhs : FVec Ideal ⟨3, ![B, K, M]⟩ φ₁) (rhs : FVec Ideal ⟨3, ![B, K, N]⟩ φ₂) (b : Fin B) (p : Fin M) (q : Fin N) :
    matmul D none lhs rhs (constant (F := Ideal) ⟨3, ![B, M, N]⟩ .f32 0x00000000#32) (ix3 b p q)
      = ∑ k : Fin K, lhs (ix3 b k p) * rhs (ix3 b k q) :=
  (Ideal.matmul_constant_zero_apply D none lhs rhs (ix3 b p q)).trans (sum_contr D hr hs h lhs rhs b p q)

/-- The host's batched dot_general read at entry (b, p, q): the same sum. -/
theorem dotGeneral_ix3 {B K M N : Nat} (D : DotDims ⟨3, ![B, K, M]⟩ ⟨3, ![B, K, N]⟩ ⟨3, ![B, M, N]⟩)
    (hr : D.contr.rank = 1) (hs : D.contr.size ⟨0, by omega⟩ = K) (h : Sends D hr)
    (lhs : FVec Ideal ⟨3, ![B, K, M]⟩ .f32) (rhs : FVec Ideal ⟨3, ![B, K, N]⟩ .f32) (b : Fin B) (p : Fin M) (q : Fin N) :
    Host.dotGeneral (F := Ideal) D none lhs rhs (ix3 b p q) = ∑ k : Fin K, lhs (ix3 b k p) * rhs (ix3 b k q) := by
  simp only [Host.dotGeneral]
  exact (Ideal.dotGeneral_apply D none _ lhs rhs (ix3 b p q)).trans (sum_contr D hr hs h lhs rhs b p q)

end Cert.Lib.BatchedDotEntry

end
-- ==== Proof.KernelEntry.lean ====
/-
  What the kernel's body stores, entry by entry, at exact arithmetic. The body loads a block of two samples: their real
  parts x0 and imaginary parts x1, [2,256,512], and their weights x2, [2,256,1]. It broadcasts the weights along the 512
  features, multiplies the real and the imaginary parts by them, and takes four batched products that contract the 256
  steps, each into a zero accumulator (the roundings to a narrower format before each product change nothing at exact
  arithmetic). The first stored value adds two of the products, the second subtracts two. Read at entry (b, d, e) of a
  [2,512,512] block: the broadcast weight at (b, t, anything) is x2[b,t,0], each product's entry is the sum over the
  steps of its factors' products, and so the two stored values are the specification's real and imaginary parts of the
  block's two samples.
-/
import proofs.«118357_j54838142435828_2_alg».proof.Proof.Gen.KernelIdeal.Skeleton
import proofs.«118357_j54838142435828_2_alg».proof.Proof.GramSpec
import proofs.«118357_j54838142435828_2_alg».proof.Proof.LibBatchedDotEntry
import Idealize.ShloMosaic.Lib.Pipeline.Value

noncomputable section

namespace Cert.Gram.Body

open Cert.KernelIdeal Cert.KernelIdeal.Gen
open Idealize.ShloMosaic Idealize.ShloMosaic.ValueIdx
open Cert.Lib.BatchedDotEntry

/-- The body's one dimension record: batch axis 0 of both factors, the step axis 1 of both contracted, the feature
    axis 2 of each kept. -/
abbrev dims : DotDims S2x256x512 S2x256x512 S2x512x512 := dot_S2x256x512_S2x256x512_S2x512x512_1_1_2_2_0_0

/-- It sends an output index (b, d, e) and a step t to (b, t, d) on the left and (b, t, e) on the right. -/
theorem dims_sends : Sends dims rfl where
  l0 := fun i c => by
    unfold DotDims.lhsIdx
    rw [dif_pos (show (0 : Fin S2x256x512.rank) ∈ dims.lhsBatch by decide)]
    rfl
  l1 := fun i c => dims.lhsIdx_val_of_single rfl i c
  l2 := fun i c => by
    unfold DotDims.lhsIdx
    rw [dif_neg (show ¬(2 : Fin S2x256x512.rank) ∈ dims.lhsBatch by decide),
      dif_pos (show (2 : Fin S2x256x512.rank) ∈ dims.lhsNonContracting by decide)]
    rfl
  r0 := fun i c => by
    unfold DotDims.rhsIdx
    rw [dif_pos (show (0 : Fin S2x256x512.rank) ∈ dims.rhsBatch by decide)]
    rfl
  r1 := fun i c => dims.rhsIdx_val_of_single rfl i c
  r2 := fun i c => by
    unfold DotDims.rhsIdx
    rw [dif_neg (show ¬(2 : Fin S2x256x512.rank) ∈ dims.rhsBatch by decide),
      dif_pos (show (2 : Fin S2x256x512.rank) ∈ dims.rhsNonContracting by decide)]
    rfl

/-- A product of the body, into the zero accumulator, at entry (b, d, e): the sum over the steps. -/
theorem product_entry {φ₁ φ₂ : FTy} (l : FVec Ideal S2x256x512 φ₁) (r : FVec Ideal S2x256x512 φ₂) (b : Fin 2) (d e : Fin 512) :
    matmul dims none l r (constant (F := Ideal) S2x512x512 .f32 0x00000000#32) (ix3 b d e)
      = ∑ k : Fin 256, l (ix3 b k d) * r (ix3 b k e) :=
  matmul_zero_ix3 dims rfl rfl dims_sends l r b d e

variable (x0 x1 : Vec Ideal S2x256x512 .f32) (x2 : Vec Ideal S2x256x1 .f32)

/-- The weights broadcast along the features: at (b, t, d) they are x2[b,t,0]. -/
theorem weight_bcast (b : Fin 2) (k : Fin 256) (d : Fin 512) :
    broadcastTo S2x256x512 x2 broadcasts_S2x256x1_S2x256x512 (ix3 b k d) = x2 (ix3 b k (0 : Fin 1)) :=
  broadcastTo_apply x2 broadcasts_S2x256x1_S2x256x512 (ix3 b k d) (ix3 b k (0 : Fin 1)) (fun a => match a with
    | ⟨0, _⟩ => by show b.val = if (2 : Nat) = 1 then 0 else b.val; rw [if_neg (by decide)]
    | ⟨1, _⟩ => by show k.val = if (256 : Nat) = 1 then 0 else k.val; rw [if_neg (by decide)]
    | ⟨2, _⟩ => by show 0 = if (1 : Nat) = 1 then 0 else d.val; rw [if_pos rfl])

/-- The real parts, narrowed: unchanged at exact arithmetic. -/
theorem narrowed_real (i : S2x256x512.Idx) : k0_pay1 (F := Ideal) x0 i = x0 i := rfl

/-- The imaginary parts, narrowed: unchanged. -/
theorem narrowed_imag (i : S2x256x512.Idx) : k0_pay2 (F := Ideal) x1 i = x1 i := rfl

/-- The weighted real parts at (b, t, d). -/
theorem weighted_real (b : Fin 2) (k : Fin 256) (d : Fin 512) :
    k0_pay3 (F := Ideal) x0 x2 (ix3 b k d) = x0 (ix3 b k d) * x2 (ix3 b k (0 : Fin 1)) := by
  unfold k0_pay3
  show x0 (ix3 b k d) * broadcastTo S2x256x512 x2 broadcasts_S2x256x1_S2x256x512 (ix3 b k d) = _
  exact congrArg (x0 (ix3 b k d) * ·) (weight_bcast x2 b k d)

/-- The weighted imaginary parts at (b, t, d). -/
theorem weighted_imag (b : Fin 2) (k : Fin 256) (d : Fin 512) :
    k0_pay4 (F := Ideal) x1 x2 (ix3 b k d) = x1 (ix3 b k d) * x2 (ix3 b k (0 : Fin 1)) := by
  unfold k0_pay4
  show x1 (ix3 b k d) * broadcastTo S2x256x512 x2 broadcasts_S2x256x1_S2x256x512 (ix3 b k d) = _
  exact congrArg (x1 (ix3 b k d) * ·) (weight_bcast x2 b k d)

/-- The first stored value at (b, d, e) is the real part of the block's sample b. -/
theorem stored_real (b : Fin 2) (d e : Fin 512) :
    k0_pay5 (F := Ideal) x0 x1 x2 (ix3 b d e) = realAt (B := 2) x0 x1 x2 b d e := by
  unfold k0_pay5
  show matmul dims none (k0_pay3 x0 x2) (k0_pay1 x0) (constant (F := Ideal) S2x512x512 .f32 0x00000000#32) (ix3 b d e)
      + matmul dims none (k0_pay4 x1 x2) (k0_pay2 x1) (constant (F := Ideal) S2x512x512 .f32 0x00000000#32) (ix3 b d e) = _
  refine (congrArg₂ (· + ·) (product_entry _ _ b d e) (product_entry _ _ b d e)).trans ?_
  unfold realAt wgram
  refine congrArg₂ (· + ·) (Finset.sum_congr rfl fun k _ => ?_) (Finset.sum_congr rfl fun k _ => ?_)
  · exact congrArg₂ (· * ·) (weighted_real x0 x2 b k d) (narrowed_real x0 _)
  · exact congrArg₂ (· * ·) (weighted_imag x1 x2 b k d) (narrowed_imag x1 _)

/-- The second stored value at (b, d, e) is the imaginary part of the block's sample b. -/
theorem stored_imag (b : Fin 2) (d e : Fin 512) :
    k0_pay6 (F := Ideal) x0 x1 x2 (ix3 b d e) = imagAt (B := 2) x0 x1 x2 b d e := by
  unfold k0_pay6
  show matmul dims none (k0_pay4 x1 x2) (k0_pay1 x0) (constant (F := Ideal) S2x512x512 .f32 0x00000000#32) (ix3 b d e)
      - matmul dims none (k0_pay3 x0 x2) (k0_pay2 x1) (constant (F := Ideal) S2x512x512 .f32 0x00000000#32) (ix3 b d e) = _
  refine (congrArg₂ (· - ·) (product_entry _ _ b d e) (product_entry _ _ b d e)).trans ?_
  unfold imagAt wgram
  refine congrArg₂ (· - ·) (Finset.sum_congr rfl fun k _ => ?_) (Finset.sum_congr rfl fun k _ => ?_)
  · exact congrArg₂ (· * ·) (weighted_imag x1 x2 b k d) (narrowed_real x0 _)
  · exact congrArg₂ (· * ·) (weighted_real x0 x2 b k d) (narrowed_imag x1 _)

end Cert.Gram.Body

end
-- ==== Proof.KernelArrays.lean ====
/-
  From the kernel's blocks to its result arrays. The grid has thirty-two points; point t stages samples 2t and 2t + 1 of
  each argument (a block [2,256,512] of the real parts, one of the imaginary parts, a block [2,256,1] of the weights)
  and writes back samples 2t and 2t + 1 of each result (a block [2,512,512]). Every block starts at feature and step 0,
  so entry (b, u, v) of a block at point t is entry (2t + b, u, v) of its array. Since the body's two stored values are
  the specification's real and imaginary parts of the staged samples, point t writes back block t of the
  specification's whole arrays; the thirty-two blocks cover all sixty-four samples (sample n is in block n / 2); so after
  the run each result array is the specification of the argument arrays.
-/
import proofs.«118357_j54838142435828_2_alg».proof.Proof.Gen.KernelIdeal.Value
import proofs.«118357_j54838142435828_2_alg».proof.Proof.KernelEntry
import Idealize.ShloMosaic.Lib.Pipeline.Value

noncomputable section

namespace Cert.Gram.Arrays

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Gram.Body

variable (m : (ℓ : Loc nD τ sig) → Buf (Elt Ideal) ℓ) (ρ : Dev nD → PrngReg)

theorem hz : (![0, 0, 0] : Fin 3 → Nat) = fun _ => 0 := funext fun a => by fin_cases a <;> rfl

/-- A grid point is below thirty-two. -/
theorem lt32 (t : Fin cfg0.N) : t.val < 32 := lt_of_lt_of_eq t.isLt (show cfg0.N = 32 from N_0)

/-- The five index maps, decided over the grid: every window's block at point t is block (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-! ## The staged blocks are samples 2t and 2t + 1 of the arguments -/

/-- The real parts' block at point t. -/
theorem real_block (c : Dev nD) (t : Fin cfg0.N) (b : Fin 2) (k : Fin 256) (d : Fin 512) :
    (iblk m c 0 t : Vec Ideal S2x256x512 .f32) (ix3 b k d)
      = (m ((c : Thread nD τ).loc main_arg0) : S64x256x512.Idx → Elt Ideal .f32) (ix3 (sampleOf t.val (lt32 t) b) k d) := by
  obtain ⟨⟨h0, h1, h2⟩, -⟩ := idx_facts t
  unfold iblk
  rw [View.read_apply]
  show V m c main_arg0 _ = m (c.tc.loc main_arg0) _
  unfold V
  congr 1
  funext a
  apply Fin.ext
  match a with
  | ⟨0, _⟩ => show win0_0.index t 0 * 2 + 1 * b.val = 2 * t.val + b.val; rw [h0]; omega
  | ⟨1, _⟩ => show win0_0.index t 1 * 256 + 1 * k.val = k.val; rw [h1]; omega
  | ⟨2, _⟩ => show win0_0.index t 2 * 512 + 1 * d.val = d.val; rw [h2]; omega

/-- The imaginary parts' block at point t. -/
theorem imag_block (c : Dev nD) (t : Fin cfg0.N) (b : Fin 2) (k : Fin 256) (d : Fin 512) :
    (iblk m c 1 t : Vec Ideal S2x256x512 .f32) (ix3 b k d)
      = (m ((c : Thread nD τ).loc main_arg1) : S64x256x512.Idx → Elt Ideal .f32) (ix3 (sampleOf t.val (lt32 t) b) k d) := by
  obtain ⟨-, ⟨h0, h1, h2⟩, -⟩ := idx_facts t
  unfold iblk
  rw [View.read_apply]
  show V m c main_arg1 _ = m (c.tc.loc main_arg1) _
  unfold V
  congr 1
  funext a
  apply Fin.ext
  match a with
  | ⟨0, _⟩ => show win0_1.index t 0 * 2 + 1 * b.val = 2 * t.val + b.val; rw [h0]; omega
  | ⟨1, _⟩ => show win0_1.index t 1 * 256 + 1 * k.val = k.val; rw [h1]; omega
  | ⟨2, _⟩ => show win0_1.index t 2 * 512 + 1 * d.val = d.val; rw [h2]; omega

/-- The weights' block at point t. -/
theorem weight_block (c : Dev nD) (t : Fin cfg0.N) (b : Fin 2) (k : Fin 256) :
    (iblk m c 2 t : Vec Ideal S2x256x1 .f32) (ix3 b k (0 : Fin 1))
      = (m ((c : Thread nD τ).loc main_arg2) : S64x256x1.Idx → Elt Ideal .f32) (ix3 (sampleOf t.val (lt32 t) b) k (0 : Fin 1)) := by
  obtain ⟨-, -, ⟨h0, h1, h2⟩, -⟩ := idx_facts t
  unfold iblk
  rw [View.read_apply]
  show V m c main_arg2 _ = m (c.tc.loc main_arg2) _
  unfold V
  congr 1
  funext a
  apply Fin.ext
  match a with
  | ⟨0, _⟩ => show win0_2.index t 0 * 2 + 1 * b.val = 2 * t.val + b.val; rw [h0]; omega
  | ⟨1, _⟩ => show win0_2.index t 1 * 256 + 1 * k.val = k.val; rw [h1]; omega
  | ⟨2, _⟩ => show win0_2.index t 2 * 1 + 1 * 0 = 0; rw [h2]

/-! ## The real part: output window 3 -/

/-- Entry (b, d, e) of the real part's block at point t is entry (2t + b, d, e) of its array. -/
theorem real_emb (t : Fin cfg0.N) (b : Fin 2) (d e : Fin 512) :
    (((cfg0.win 3).blk t).view.emb (ix3 b d e) : S64x512x512.Idx) = ix3 (sampleOf t.val (lt32 t) b) d e := by
  obtain ⟨-, -, -, ⟨h0, h1, h2⟩, -⟩ := idx_facts t
  funext a
  apply Fin.ext
  match a with
  | ⟨0, _⟩ => show win0_3.index t 0 * 2 + 1 * b.val = 2 * t.val + b.val; rw [h0]; omega
  | ⟨1, _⟩ => show win0_3.index t 1 * 512 + 1 * d.val = d.val; rw [h1]; omega
  | ⟨2, _⟩ => show win0_3.index t 2 * 512 + 1 * e.val = e.val; rw [h2]; omega

/-- What point t writes back to the real part's array is block t of the specification's real part. -/
theorem flushed_real (c : Dev nD) (t : Fin cfg0.N) :
    (dats m 0 c).flushed 3 t = ((cfg0.win 3).blk t).view.read (Elt Ideal)
      (realPart (m ((c : Thread nD τ).loc main_arg0)) (m ((c : Thread nD τ).loc main_arg1)) (m ((c : Thread nD τ).loc main_arg2))) := by
  rw [flushed3]
  unfold out0_3
  rw [View.canon_unit_zero hz]
  simp only [View.ld_unit_zero (S := S2x256x512) hz, View.ld_unit_zero (S := S2x256x1) hz]
  funext j
  obtain ⟨b, d, e, rfl⟩ : ∃ (b : Fin 2) (d e : Fin 512), j = ix3 b d e := ⟨j 0, j 1, j 2, eq_ix3 j⟩
  show k0_pay5 (iblk m c 0 t) (iblk m c 1 t) (iblk m c 2 t) (ix3 b d e)
    = realPart (m ((c : Thread nD τ).loc main_arg0)) (m ((c : Thread nD τ).loc main_arg1)) (m ((c : Thread nD τ).loc main_arg2))
        (((cfg0.win 3).blk t).view.emb (ix3 b d e))
  rw [real_emb t b d e, realPart_ix3]
  refine (stored_real (iblk m c 0 t) (iblk m c 1 t) (iblk m c 2 t) b d e).trans ?_
  unfold realAt
  exact congrArg₂ (· + ·)
    (wgram_block _ _ _ (iblk m c 0 t) (iblk m c 0 t) (iblk m c 2 t) t.val (lt32 t) (real_block m c t) (real_block m c t) (weight_block m c t) b d e)
    (wgram_block _ _ _ (iblk m c 1 t) (iblk m c 1 t) (iblk m c 2 t) t.val (lt32 t) (imag_block m c t) (imag_block m c t) (weight_block m c t) b d e)

/-- An index of the real part's array is in point t's block iff each coordinate is in the block's range on its axis. -/
theorem mem_blk_real (t : Fin cfg0.N) (i : S64x512x512.Idx) :
    i ∈ ((cfg0.win 3).blk t).view.set ↔ ∀ a : Fin 3, win0_3.index t a * S2x512x512.size a ≤ (i a).val ∧ (i a).val < win0_3.index t a * S2x512x512.size a + S2x512x512.size a := by
  show i ∈ ((View.whole main_v0_0).slice (win0_3.rect t)).set ↔ _
  rw [View.set_slice_whole, Rect.mem_set_unit]
  exact Iff.rfl

/-- Every index of the real part's array is in the block of point (its sample) / 2. -/
theorem covered_real (i : S64x512x512.Idx) :
    ∃ t : Fin cfg0.N, (cfg0.win 3).flush t = true ∧ i ∈ ((cfg0.win 3).blk t).view.set := by
  have hN : cfg0.N = 32 := N_0
  have hi0 : (i 0).val < 64 := (i 0).isLt
  have hi1 : (i 1).val < 512 := (i 1).isLt
  have hi2 : (i 2).val < 512 := (i 2).isLt
  obtain ⟨t, ht⟩ : ∃ t : Fin cfg0.N, t.val = (i 0).val / 2 := ⟨⟨(i 0).val / 2, by rw [hN]; omega⟩, rfl⟩
  obtain ⟨-, -, -, ⟨h0, h1, h2⟩, -⟩ := idx_facts t
  refine ⟨t, flush0_3 t, ?_⟩
  rw [mem_blk_real]
  intro a
  match a with
  | ⟨0, _⟩ => show win0_3.index t 0 * 2 ≤ (i 0).val ∧ (i 0).val < win0_3.index t 0 * 2 + 2; rw [h0, ht]; omega
  | ⟨1, _⟩ => show win0_3.index t 1 * 512 ≤ (i 1).val ∧ (i 1).val < win0_3.index t 1 * 512 + 512; rw [h1]; omega
  | ⟨2, _⟩ => show win0_3.index t 2 * 512 ≤ (i 2).val ∧ (i 2).val < win0_3.index t 2 * 512 + 512; rw [h2]; omega

/-- After the run the real part's array is the specification's real part of the argument arrays. -/
theorem final_real (c : Dev nD) : (dats m 0 c).arrAt 3 cfg0.N
    = realPart (m ((c : Thread nD τ).loc main_arg0)) (m ((c : Thread nD τ).loc main_arg1)) (m ((c : Thread nD τ).loc main_arg2)) :=
  (dats m 0 c).arrAt_eq_of_cover 3 _ (fun t _ => flushed_real m c t) covered_real

/-! ## The imaginary part: output window 4 -/

/-- Entry (b, d, e) of the imaginary part's block at point t is entry (2t + b, d, e) of its array. -/
theorem imag_emb (t : Fin cfg0.N) (b : Fin 2) (d e : Fin 512) :
    (((cfg0.win 4).blk t).view.emb (ix3 b d e) : S64x512x512.Idx) = ix3 (sampleOf t.val (lt32 t) b) d e := by
  obtain ⟨-, -, -, -, h0, h1, h2⟩ := idx_facts t
  funext a
  apply Fin.ext
  match a with
  | ⟨0, _⟩ => show win0_4.index t 0 * 2 + 1 * b.val = 2 * t.val + b.val; rw [h0]; omega
  | ⟨1, _⟩ => show win0_4.index t 1 * 512 + 1 * d.val = d.val; rw [h1]; omega
  | ⟨2, _⟩ => show win0_4.index t 2 * 512 + 1 * e.val = e.val; rw [h2]; omega

/-- What point t writes back to the imaginary part's array is block t of the specification's imaginary part. -/
theorem flushed_imag (c : Dev nD) (t : Fin cfg0.N) :
    (dats m 0 c).flushed 4 t = ((cfg0.win 4).blk t).view.read (Elt Ideal)
      (imagPart (m ((c : Thread nD τ).loc main_arg0)) (m ((c : Thread nD τ).loc main_arg1)) (m ((c : Thread nD τ).loc main_arg2))) := by
  rw [flushed4]
  unfold out0_4
  rw [View.canon_unit_zero hz]
  simp only [View.ld_unit_zero (S := S2x256x512) hz, View.ld_unit_zero (S := S2x256x1) hz]
  funext j
  obtain ⟨b, d, e, rfl⟩ : ∃ (b : Fin 2) (d e : Fin 512), j = ix3 b d e := ⟨j 0, j 1, j 2, eq_ix3 j⟩
  show k0_pay6 (iblk m c 0 t) (iblk m c 1 t) (iblk m c 2 t) (ix3 b d e)
    = imagPart (m ((c : Thread nD τ).loc main_arg0)) (m ((c : Thread nD τ).loc main_arg1)) (m ((c : Thread nD τ).loc main_arg2))
        (((cfg0.win 4).blk t).view.emb (ix3 b d e))
  rw [imag_emb t b d e, imagPart_ix3]
  refine (stored_imag (iblk m c 0 t) (iblk m c 1 t) (iblk m c 2 t) b d e).trans ?_
  unfold imagAt
  exact congrArg₂ (· - ·)
    (wgram_block _ _ _ (iblk m c 1 t) (iblk m c 0 t) (iblk m c 2 t) t.val (lt32 t) (imag_block m c t) (real_block m c t) (weight_block m c t) b d e)
    (wgram_block _ _ _ (iblk m c 0 t) (iblk m c 1 t) (iblk m c 2 t) t.val (lt32 t) (real_block m c t) (imag_block m c t) (weight_block m c t) b d e)

/-- An index of the imaginary part's array is in point t's block iff each coordinate is in the block's range on its axis. -/
theorem mem_blk_imag (t : Fin cfg0.N) (i : S64x512x512.Idx) :
    i ∈ ((cfg0.win 4).blk t).view.set ↔ ∀ a : Fin 3, win0_4.index t a * S2x512x512.size a ≤ (i a).val ∧ (i a).val < win0_4.index t a * S2x512x512.size a + S2x512x512.size a := by
  show i ∈ ((View.whole main_v0_1).slice (win0_4.rect t)).set ↔ _
  rw [View.set_slice_whole, Rect.mem_set_unit]
  exact Iff.rfl

/-- Every index of the imaginary part's array is in the block of point (its sample) / 2. -/
theorem covered_imag (i : S64x512x512.Idx) :
    ∃ t : Fin cfg0.N, (cfg0.win 4).flush t = true ∧ i ∈ ((cfg0.win 4).blk t).view.set := by
  have hN : cfg0.N = 32 := N_0
  have hi0 : (i 0).val < 64 := (i 0).isLt
  have hi1 : (i 1).val < 512 := (i 1).isLt
  have hi2 : (i 2).val < 512 := (i 2).isLt
  obtain ⟨t, ht⟩ : ∃ t : Fin cfg0.N, t.val = (i 0).val / 2 := ⟨⟨(i 0).val / 2, by rw [hN]; omega⟩, rfl⟩
  obtain ⟨-, -, -, -, h0, h1, h2⟩ := idx_facts t
  refine ⟨t, flush0_4 t, ?_⟩
  rw [mem_blk_imag]
  intro a
  match a with
  | ⟨0, _⟩ => show win0_4.index t 0 * 2 ≤ (i 0).val ∧ (i 0).val < win0_4.index t 0 * 2 + 2; rw [h0, ht]; omega
  | ⟨1, _⟩ => show win0_4.index t 1 * 512 ≤ (i 1).val ∧ (i 1).val < win0_4.index t 1 * 512 + 512; rw [h1]; omega
  | ⟨2, _⟩ => show win0_4.index t 2 * 512 ≤ (i 2).val ∧ (i 2).val < win0_4.index t 2 * 512 + 512; rw [h2]; omega

/-- After the run the imaginary part's array is the specification's imaginary part of the argument arrays. -/
theorem final_imag (c : Dev nD) : (dats m 0 c).arrAt 4 cfg0.N
    = imagPart (m ((c : Thread nD τ).loc main_arg0)) (m ((c : Thread nD τ).loc main_arg1)) (m ((c : Thread nD τ).loc main_arg2)) :=
  (dats m 0 c).arrAt_eq_of_cover 4 _ (fun t _ => flushed_imag m c t) covered_imag

/-! ## The run, read -/

/-- Every weakly fair execution of the kernel's program terminates with its two result arrays at the specification's real
    and imaginary parts of the argument arrays, and the arguments unchanged. -/
theorem run : θ_run defs (onTc (τ := τ) (main (F := Ideal))) ⟨m, fun _ => 0, ρ⟩ fun r => ∀ c : Dev nD,
      r.2.mem ((c : Thread nD τ).loc main_v0_0)
        = realPart (m ((c : Thread nD τ).loc main_arg0)) (m ((c : Thread nD τ).loc main_arg1)) (m ((c : Thread nD τ).loc main_arg2))
      ∧ r.2.mem ((c : Thread nD τ).loc main_v0_1)
        = imagPart (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_real m c), (h c).2.1.trans (final_imag m c), (h c).2.2⟩)
    (run_blocks m ρ)

end Cert.Gram.Arrays

end
-- ==== Proof.RefGram.lean ====
/-
  The reference computes the weighted Gram sums. Its host program reshapes the weights [64,256,1] to [64,256], broadcasts
  them back along a unit axis and then along the 512 feature coordinates, multiplies the real and the imaginary parts by
  them, takes four batched products contracting the step axis, and adds or subtracts two of them. Read at an index
  (b, d, e): the broadcast weight at (b, t, anything) is w[b,t,0], a product's entry is the sum over the steps t of its
  factors' products, and so the two results are the specification's real and imaginary parts, term for term.
-/
import proofs.«118357_j54838142435828_2_alg».proof.Proof.Gen.ReferenceIdeal.Read
import proofs.«118357_j54838142435828_2_alg».proof.Proof.GramSpec

noncomputable section

namespace Cert.Gram.Ref

open Cert.ReferenceIdeal Cert.ReferenceIdeal.Gen Cert.ReferenceIdeal.Read
open Idealize.ShloMosaic Idealize.ShloMosaic.ValueIdx

variable (x0 x1 : (⟨S64x256x512, .f32⟩ : BufTy).Contents (Elt Ideal)) (x2 : (⟨S64x256x1, .f32⟩ : BufTy).Contents (Elt Ideal))

/-- The weights, reshaped and broadcast along the features for the real parts' product: at (b, t, d) they are w[b,t,0]. -/
theorem weight_real (b : Fin 64) (k : Fin 256) (d : Fin 512) :
    val_main_v2 (F := Ideal) x2 (ix3 b k d) = x2 (ix3 b k (0 : Fin 1)) := by
  rw [val_main_v2_apply, val_main_v1_apply, val_main_v0_apply]
  refine congrArg x2 (funext fun a => Fin.ext ?_)
  match a with
  | ⟨0, _⟩ => show (b.val * 256 + k.val) / 256 = b.val; have := k.isLt; omega
  | ⟨1, _⟩ => show (b.val * 256 + k.val) / 1 % 256 = k.val; have := k.isLt; omega
  | ⟨2, _⟩ => rfl

/-- The same weights, broadcast a second time for the imaginary parts' product. -/
theorem weight_imag (b : Fin 64) (k : Fin 256) (d : Fin 512) :
    val_main_v5 (F := Ideal) x2 (ix3 b k d) = x2 (ix3 b k (0 : Fin 1)) := by
  rw [val_main_v5_apply, val_main_v4_apply, val_main_v0_apply]
  refine congrArg x2 (funext fun a => Fin.ext ?_)
  match a with
  | ⟨0, _⟩ => show (b.val * 256 + k.val) / 256 = b.val; have := k.isLt; omega
  | ⟨1, _⟩ => show (b.val * 256 + k.val) / 1 % 256 = k.val; have := k.isLt; omega
  | ⟨2, _⟩ => rfl

/-- The weighted real parts at (b, t, d). -/
theorem weighted_real (b : Fin 64) (k : Fin 256) (d : Fin 512) :
    val_main_v3 (F := Ideal) x0 x2 (ix3 b k d) = x0 (ix3 b k d) * x2 (ix3 b k (0 : Fin 1)) := by
  rw [val_main_v3_apply, weight_real]; rfl

/-- The weighted imaginary parts at (b, t, d). -/
theorem weighted_imag (b : Fin 64) (k : Fin 256) (d : Fin 512) :
    val_main_v6 (F := Ideal) x1 x2 (ix3 b k d) = x1 (ix3 b k d) * x2 (ix3 b k (0 : Fin 1)) := by
  rw [val_main_v6_apply, weight_imag]; rfl

/-- The four batched products at entry (b, d, e): each is one weighted Gram sum. -/
theorem prod_rr (b : Fin 64) (d e : Fin 512) :
    val_main_v7 (F := Ideal) x0 x2 (ix3 b d e) = wgram (B := 64) x0 x0 x2 b d e := by
  rw [val_main_v7_apply]
  unfold wgram
  refine Finset.sum_congr rfl fun k _ => ?_
  have el : lidx_main_v7 (ix3 b d e) k = ix3 b k d := funext fun a => by
    match a with | ⟨0, _⟩ => rfl | ⟨1, _⟩ => rfl | ⟨2, _⟩ => rfl
  have er : ridx_main_v7 (ix3 b d e) k = ix3 b k e := funext fun a => by
    match a with | ⟨0, _⟩ => rfl | ⟨1, _⟩ => rfl | ⟨2, _⟩ => rfl
  rw [el, er, weighted_real]

theorem prod_ss (b : Fin 64) (d e : Fin 512) :
    val_main_v8 (F := Ideal) x1 x2 (ix3 b d e) = wgram (B := 64) x1 x1 x2 b d e := by
  rw [val_main_v8_apply]
  unfold wgram
  refine Finset.sum_congr rfl fun k _ => ?_
  have el : lidx_main_v8 (ix3 b d e) k = ix3 b k d := funext fun a => by
    match a with | ⟨0, _⟩ => rfl | ⟨1, _⟩ => rfl | ⟨2, _⟩ => rfl
  have er : ridx_main_v8 (ix3 b d e) k = ix3 b k e := funext fun a => by
    match a with | ⟨0, _⟩ => rfl | ⟨1, _⟩ => rfl | ⟨2, _⟩ => rfl
  rw [el, er, weighted_imag]

theorem prod_sr (b : Fin 64) (d e : Fin 512) :
    val_main_v10 (F := Ideal) x0 x1 x2 (ix3 b d e) = wgram (B := 64) x1 x0 x2 b d e := by
  rw [val_main_v10_apply]
  unfold wgram
  refine Finset.sum_congr rfl fun k _ => ?_
  have el : lidx_main_v10 (ix3 b d e) k = ix3 b k d := funext fun a => by
    match a with | ⟨0, _⟩ => rfl | ⟨1, _⟩ => rfl | ⟨2, _⟩ => rfl
  have er : ridx_main_v10 (ix3 b d e) k = ix3 b k e := funext fun a => by
    match a with | ⟨0, _⟩ => rfl | ⟨1, _⟩ => rfl | ⟨2, _⟩ => rfl
  rw [el, er, weighted_imag]

theorem prod_rs (b : Fin 64) (d e : Fin 512) :
    val_main_v11 (F := Ideal) x0 x1 x2 (ix3 b d e) = wgram (B := 64) x0 x1 x2 b d e := by
  rw [val_main_v11_apply]
  unfold wgram
  refine Finset.sum_congr rfl fun k _ => ?_
  have el : lidx_main_v11 (ix3 b d e) k = ix3 b k d := funext fun a => by
    match a with | ⟨0, _⟩ => rfl | ⟨1, _⟩ => rfl | ⟨2, _⟩ => rfl
  have er : ridx_main_v11 (ix3 b d e) k = ix3 b k e := funext fun a => by
    match a with | ⟨0, _⟩ => rfl | ⟨1, _⟩ => rfl | ⟨2, _⟩ => rfl
  rw [el, er, weighted_real]

/-- The reference's first result is the real part. -/
theorem real_eq : val_main_v9 (F := Ideal) x0 x1 x2 = realPart x0 x1 x2 := by
  funext i
  obtain ⟨b, d, e, rfl⟩ : ∃ (b : Fin 64) (d e : Fin 512), i = ix3 b d e := ⟨i 0, i 1, i 2, eq_ix3 i⟩
  rw [val_main_v9_apply, prod_rr, prod_ss, realPart_ix3]
  rfl

/-- The reference's second result is the imaginary part. -/
theorem imag_eq : val_main_v12 (F := Ideal) x0 x1 x2 = imagPart x0 x1 x2 := by
  funext i
  obtain ⟨b, d, e, rfl⟩ : ∃ (b : Fin 64) (d e : Fin 512), i = ix3 b d e := ⟨i 0, i 1, i 2, eq_ix3 i⟩
  rw [val_main_v12_apply, prod_sr, prod_rs, imagPart_ix3]
  rfl

end Cert.Gram.Ref

end
-- ==== Proof.lean ====
/-
  The kernel and its reference both compute, for each of sixty-four samples of 256 steps of 512-dimensional complex
  vectors with real parts r, imaginary parts s and a weight w per step, the weighted sum over the steps of the outer
  product of a step's vector with its conjugate: at entry (d, e)

      real part       sum over t of (r[t,d] * w[t]) * r[t,e]  +  sum over t of (s[t,d] * w[t]) * s[t,e]
      imaginary part  sum over t of (s[t,d] * w[t]) * r[t,e]  -  sum over t of (r[t,d] * w[t]) * s[t,e]

  (Proof/GramSpec.lean). The reference does it with four batched products over the whole batch (Proof/RefGram.lean); the
  kernel does it two samples at a time on a grid of thirty-two points, each product into a zero accumulator after a
  narrowing of its factors that is the identity at exact arithmetic (Proof/KernelEntry.lean for what a point stores,
  Proof/KernelArrays.lean for the arrays after the run). Over the extended reals the two programs evaluate the same
  expression, term for term, in the same grouping: the weight multiplies the left factor first, and each sum runs over
  the same 256 steps. No law of arithmetic beyond 0 + x = x (the zero accumulator) is needed, so the precondition that the
  inputs are finite is never opened. No operation of the kernel was rewritten for its reading at exact arithmetic: the
  idealized kernel is the kernel's own text read there. The three frames are the generated ones; the reference's is its generated run with the results
  dropped.
-/
import proofs.«118357_j54838142435828_2_alg».proof.Defs
import proofs.«118357_j54838142435828_2_alg».proof.Proof.Gen.Kernel
import proofs.«118357_j54838142435828_2_alg».proof.Proof.Gen.Kernel.Frame
import proofs.«118357_j54838142435828_2_alg».proof.Proof.Gen.KernelIdeal
import proofs.«118357_j54838142435828_2_alg».proof.Proof.Gen.KernelIdeal.Frame
import proofs.«118357_j54838142435828_2_alg».proof.Proof.Gen.KernelIdeal.Value
import proofs.«118357_j54838142435828_2_alg».proof.Proof.Gen.ReferenceIdeal
import proofs.«118357_j54838142435828_2_alg».proof.Proof.Gen.ReferenceIdeal.Run
import proofs.«118357_j54838142435828_2_alg».proof.Proof.Gen.ReferenceIdeal.Read
import proofs.«118357_j54838142435828_2_alg».proof.Proof.Gen.Pre_finite_inputs
import proofs.«118357_j54838142435828_2_alg».proof.Proof.KernelArrays
import proofs.«118357_j54838142435828_2_alg».proof.Proof.RefGram
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel at exact arithmetic. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten for its reading at exact arithmetic. -/
theorem preserves : Cert.preserves_Kernel_KernelIdeal := trivial

/-- From memories that agree on the arguments both programs end with their first result at the specification's real part
    and their second at its imaginary part of those arguments. -/
theorem algebraic : Cert.algebraic_KernelIdeal_ReferenceIdeal := by
  intro m ρ m' ρ' _ hagree
  refine ⟨_, _, Cert.Gram.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v9_eq, Cert.Gram.Ref.real_eq, (hagree c).1, (hagree c).2.1, (hagree c).2.2]
  · rw [Cert.ReferenceIdeal.Read.val_main_v12_eq, Cert.Gram.Ref.imag_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
